-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S2x8192x2048 : Shape := ⟨3, ![2, 8192, 2048]⟩
abbrev S512x2048 : Shape := ⟨2, ![512, 2048]⟩
abbrev S256x2048 : Shape := ⟨2, ![256, 2048]⟩
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2x512x256, .f32⟩
  | .local _ .vmem, ⟨9, _⟩ => ⟨S2x512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  shapeCasts_S512x256_S1x512x256 : S512x256.ShapeCasts S1x512x256
  inb_S2x512x256_S1x512x256_1_0_0 : ∀ a, (![1, 0, 0] : Fin 3 → Nat) a + S1x512x256.size a ≤ S2x512x256.size a
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x256.size a ≤ S2x8192x2048.size a
  hwx0_4 : ∀ i : grid0.Coords, EltTy.bits .f32 = 32 ∨ (Rect.block (s := S2x8192x2048) S2x512x256.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S1x8192x2048 : Shape := ⟨3, ![1, 8192, 2048]⟩
abbrev S2x8192x2048 : Shape := ⟨3, ![2, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S1x8192x2048, .f32⟩
  | .hbm, ⟨11, _⟩ => ⟨S1x8192x2048, .f32⟩
  | .hbm, ⟨12, _⟩ => ⟨S2x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8192x2048_S1x8192x2048_1_2 : S8192x2048.BroadcastsInDim S1x8192x2048 (![1, 2] : Fin 2 → Fin S1x8192x2048.rank)
  concatenates_S1x8192x2048_S1x8192x2048_S2x8192x2048_d0 : Shape.Concatenates [S1x8192x2048, S1x8192x2048] S2x8192x2048 0
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.LibComplexProduct.lean ====
/-
  A complex linear map over the extended reals, y = x · wᵀ with x = xr + i·xi of shape [M, K] and w = wr + i·wi of
  shape [N, K], its real and imaginary planes stacked on a leading axis of extent 2:

    plane 0 (real)       ∑ₖ xr(b,k)·wr(o,k) − ∑ₖ xi(b,k)·wi(o,k)
    plane 1 (imaginary)  ∑ₖ xr(b,k)·wi(o,k) + ∑ₖ xi(b,k)·wr(o,k)          (four real products)
                       = (∑ₖ (xr+xi)(b,k)·(wr+wi)(o,k) − ∑ₖ xr(b,k)·wr(o,k)) − ∑ₖ xi(b,k)·wi(o,k)   (three real products)

  The two arrangements of the imaginary plane agree when every entry is a real number: the identity
  (a+b)(c+d) − ac − bd = ad + bc needs distributivity and cancellation, which the extended reals lose at ±∞
  (⊤ − ⊤ is ⊥ there), so the law is proved through ℝ and carries the hypothesis that the entries are real.
-/
import Idealize.ShloMosaic.PureOps.Ideal
import Idealize.ShloMosaic.Lib.ValueIdx

noncomputable section

open scoped BigOperators

namespace Cert.ComplexLinear

open Idealize.ShloMosaic Idealize.ShloMosaic.ValueIdx

/-! ## One entry: a row of x against a row of w -/

section Rows
variable {κ : Type} [Fintype κ]

/-- The real part of ∑ₖ (a + i·b)ₖ (c + i·d)ₖ. -/
def rePart (a b c d : κ → EReal) : EReal := ∑ k, a k * c k - ∑ k, b k * d k

/-- Its imaginary part, as two real products summed. -/
def imFour (a b c d : κ → EReal) : EReal := ∑ k, a k * d k + ∑ k, b k * c k

/-- Its imaginary part from the product of the sums, less the two products the real part already has. -/
def imThree (a b c d : κ → EReal) : EReal := (∑ k, (a k + b k) * (c k + d k) - ∑ k, a k * c k) - ∑ k, b k * d k

/-- The coercion of the reals into the extended reals commutes with finite sums. -/
theorem coe_finsum {ι : Type} (s : Finset ι) (f : ι → ℝ) : ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- On real entries the two arrangements of the imaginary part agree: (a+b)(c+d) − ac − bd = ad + bc, summed. -/
theorem imThree_eq_imFour (a b c d : κ → EReal) (ha : ∀ k, ∃ r : ℝ, a k = r) (hb : ∀ k, ∃ r : ℝ, b k = r)
    (hc : ∀ k, ∃ r : ℝ, c k = r) (hd : ∀ k, ∃ r : ℝ, d k = r) : imThree a b c d = imFour a b c d := by
  choose a' ha using ha
  choose b' hb using hb
  choose c' hc using hc
  choose d' hd using hd
  obtain rfl : a = fun k => (a' k : EReal) := funext ha
  obtain rfl : b = fun k => (b' k : EReal) := funext hb
  obtain rfl : c = fun k => (c' k : EReal) := funext hc
  obtain rfl : d = fun k => (d' k : EReal) := funext hd
  unfold imThree imFour
  simp only [← EReal.coe_add, ← EReal.coe_mul, ← coe_finsum, ← EReal.coe_sub]
  refine congrArg _ ?_
  simp only [add_mul, mul_add, Finset.sum_add_distrib]
  ring

end Rows

/-! ## The stacked result, entry by entry -/

/-- Row `r` of an [M, K] array, as a function of the contracted coordinate. -/
abbrev row {M K : Nat} (x : (⟨2, ![M, K]⟩ : Shape).Idx → EReal) (r : Fin M) : Fin K → EReal := fun k => x (ix2 r k)

/-- The [2, M, N] result with the imaginary plane as FOUR real products (two summed). -/
def fourProducts {M N K : Nat} (xr xi : (⟨2, ![M, K]⟩ : Shape).Idx → EReal) (wr wi : (⟨2, ![N, K]⟩ : Shape).Idx → EReal) :
    (⟨3, ![2, M, N]⟩ : Shape).Idx → EReal := fun i =>
  if (i 0).val = 0 then rePart (row xr (i 1)) (row xi (i 1)) (row wr (i 2)) (row wi (i 2))
  else imFour (row xr (i 1)) (row xi (i 1)) (row wr (i 2)) (row wi (i 2))

/-- The [2, M, N] result with the imaginary plane from THREE real products. -/
def threeProducts {M N K : Nat} (xr xi : (⟨2, ![M, K]⟩ : Shape).Idx → EReal) (wr wi : (⟨2, ![N, K]⟩ : Shape).Idx → EReal) :
    (⟨3, ![2, M, N]⟩ : Shape).Idx → EReal := fun i =>
  if (i 0).val = 0 then rePart (row xr (i 1)) (row xi (i 1)) (row wr (i 2)) (row wi (i 2))
  else imThree (row xr (i 1)) (row xi (i 1)) (row wr (i 2)) (row wi (i 2))

/-- Plane 0 of either arrangement is the real part; plane 1 the imaginary part in that arrangement. -/
theorem fourProducts_re {M N K : Nat} (xr xi : (⟨2, ![M, K]⟩ : Shape).Idx → EReal) (wr wi : (⟨2, ![N, K]⟩ : Shape).Idx → EReal)
    (b : Fin M) (o : Fin N) :
    fourProducts xr xi wr wi (ix3 (0 : Fin 2) b o) = rePart (row xr b) (row xi b) (row wr o) (row wi o) := by
  unfold fourProducts; exact if_pos rfl
theorem fourProducts_im {M N K : Nat} (xr xi : (⟨2, ![M, K]⟩ : Shape).Idx → EReal) (wr wi : (⟨2, ![N, K]⟩ : Shape).Idx → EReal)
    (b : Fin M) (o : Fin N) :
    fourProducts xr xi wr wi (ix3 (1 : Fin 2) b o) = imFour (row xr b) (row xi b) (row wr o) (row wi o) := by
  unfold fourProducts; exact if_neg (by show ¬((1 : Fin 2).val = 0); decide)
theorem threeProducts_re {M N K : Nat} (xr xi : (⟨2, ![M, K]⟩ : Shape).Idx → EReal) (wr wi : (⟨2, ![N, K]⟩ : Shape).Idx → EReal)
    (b : Fin M) (o : Fin N) :
    threeProducts xr xi wr wi (ix3 (0 : Fin 2) b o) = rePart (row xr b) (row xi b) (row wr o) (row wi o) := by
  unfold threeProducts; exact if_pos rfl
theorem threeProducts_im {M N K : Nat} (xr xi : (⟨2, ![M, K]⟩ : Shape).Idx → EReal) (wr wi : (⟨2, ![N, K]⟩ : Shape).Idx → EReal)
    (b : Fin M) (o : Fin N) :
    threeProducts xr xi wr wi (ix3 (1 : Fin 2) b o) = imThree (row xr b) (row xi b) (row wr o) (row wi o) := by
  unfold threeProducts; exact if_neg (by show ¬((1 : Fin 2).val = 0); decide)

/-- The three-product arrangement depends only on the plane and on one row of each array: two index/array settings
    that name the same plane and read equal rows give the same entry. (A block of the whole result is the result of
    the blocks: the rows are the same rows, reached through the block.) -/
theorem threeProducts_congr {M N K M' N' : Nat}
    (xr xi : (⟨2, ![M, K]⟩ : Shape).Idx → EReal) (wr wi : (⟨2, ![N, K]⟩ : Shape).Idx → EReal)
    (xr' xi' : (⟨2, ![M', K]⟩ : Shape).Idx → EReal) (wr' wi' : (⟨2, ![N', K]⟩ : Shape).Idx → EReal)
    (p : Fin 2) (b : Fin M) (o : Fin N) (b' : Fin M') (o' : Fin N')
    (hxr : ∀ k, xr (ix2 b k) = xr' (ix2 b' k)) (hxi : ∀ k, xi (ix2 b k) = xi' (ix2 b' k))
    (hwr : ∀ k, wr (ix2 o k) = wr' (ix2 o' k)) (hwi : ∀ k, wi (ix2 o k) = wi' (ix2 o' k)) :
    threeProducts xr xi wr wi (ix3 p b o) = threeProducts xr' xi' wr' wi' (ix3 p b' o') := by
  have e1 : row xr b = row xr' b' := funext hxr
  have e2 : row xi b = row xi' b' := funext hxi
  have e3 : row wr o = row wr' o' := funext hwr
  have e4 : row wi o = row wi' o' := funext hwi
  match p with
  | ⟨0, _⟩ =>
    exact (threeProducts_re xr xi wr wi b o).trans ((by rw [e1, e2, e3, e4] :
      rePart (row xr b) (row xi b) (row wr o) (row wi o) = rePart (row xr' b') (row xi' b') (row wr' o') (row wi' o')).trans
      (threeProducts_re xr' xi' wr' wi' b' o').symm)
  | ⟨1, _⟩ =>
    exact (threeProducts_im xr xi wr wi b o).trans ((by rw [e1, e2, e3, e4] :
      imThree (row xr b) (row xi b) (row wr o) (row wi o) = imThree (row xr' b') (row xi' b') (row wr' o') (row wi' o')).trans
      (threeProducts_im xr' xi' wr' wi' b' o').symm)

/-- On arrays of real numbers the two are one array: the real planes are the same term, the imaginary planes
    agree entry by entry by `imThree_eq_imFour`. -/
theorem threeProducts_eq_fourProducts {M N K : Nat} (xr xi : (⟨2, ![M, K]⟩ : Shape).Idx → EReal)
    (wr wi : (⟨2, ![N, K]⟩ : Shape).Idx → EReal) (hxr : ∀ i, ∃ r : ℝ, xr i = r) (hxi : ∀ i, ∃ r : ℝ, xi i = r)
    (hwr : ∀ i, ∃ r : ℝ, wr i = r) (hwi : ∀ i, ∃ r : ℝ, wi i = r) :
    threeProducts xr xi wr wi = fourProducts xr xi wr wi := by
  funext i
  unfold threeProducts fourProducts
  split_ifs with h
  · rfl
  · exact imThree_eq_imFour _ _ _ _ (fun _ => hxr _) (fun _ => hxi _) (fun _ => hwr _) (fun _ => hwi _)

end Cert.ComplexLinear

end
-- ==== Proof.FiniteEntries.lean ====
/-
  The precondition, read back. It says that for each of the four argument arrays the conjunction over all entries of
  |x| < +∞ is true. On the extended reals |x| = max x (−x), which is +∞ exactly at the two infinities: so every entry
  of every argument is a real number — what the three-product identity needs.
-/
import proofs.«164507_j33792802685864_2_alg».proof.Pre_finite_inputs
import proofs.«164507_j33792802685864_2_alg».proof.Proof.Gen.Pre_finite_inputs
import Idealize.ShloMosaic.Lib.ReduceAll
import Idealize.ShloMosaic.Lib.ValueIdx
import Idealize.ShloMosaic.PureOps.Ideal.Laws

noncomputable section

namespace Cert.ComplexLinear.Finite

open Idealize.ShloMosaic Cert.Pre_finite_inputs Cert.Pre_finite_inputs.Gen

/-- The scalar shape has one index. -/
instance : Subsingleton S_.Idx := ⟨fun a b => funext fun d => d.elim0⟩

/-- An extended real whose absolute value is below +∞ (the pattern 0x7F800000) is a real number: at ⊥ and at ⊤ the
    absolute value max x (−x) is ⊤, which is not below ⊤. -/
theorem real_of_abs_lt_top (x : EReal)
    (h : FloatOps.cmpf (F := Ideal) (φ := .f32) .olt (FloatOps.absf x) (Ideal.ofBits .f32 0x7F800000#32) = 1#1) :
    ∃ r : ℝ, x = r := by
  have htop : Ideal.ofBits .f32 0x7F800000#32 = ⊤ := by simp [Ideal.ofBits, Ideal.ieee]
  rw [Ideal.cmpf_def, Ideal.absf_def, htop] at h
  induction x using EReal.rec with
  | bot => simp [Ideal.cmp] at h
  | top => simp [Ideal.cmp] at h
  | coe r => exact ⟨r, rfl⟩

/-- The precondition's value all ones means every entry of each of the four arguments is a real number: the three
    conjunctions split, each "all entries" reduction gives its entry, and the entry's comparison is the fact above. -/
theorem entries_real (a0 a1 : FVec Ideal S8192x2048 .f32) (a2 a3 : FVec Ideal S2048x2048 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_top (a0 i) (Host.reduce_andi_all _ _ _ _ _ e0 i),
    fun i => real_of_abs_lt_top (a1 i) (Host.reduce_andi_all _ _ _ _ _ e1 i),
    fun i => real_of_abs_lt_top (a2 i) (Host.reduce_andi_all _ _ _ _ _ e2 i),
    fun i => real_of_abs_lt_top (a3 i) (Host.reduce_andi_all _ _ _ _ _ e3 i)⟩

end Cert.ComplexLinear.Finite

end
-- ==== Proof.ReferenceValue.lean ====
/-
  What the reference computes, entry by entry. Its last operation joins two [1, 8192, 2048] planes along the leading
  axis: an entry of plane 0 is the difference of two row-by-row contractions (xr·wrᵀ − xi·wiᵀ), an entry of plane 1
  the sum of two (xr·wiᵀ + xi·wrᵀ). Each contraction at (b, o) is ∑ₖ x(b,k)·w(o,k): the left operand is read at row
  b, the right operand at row o, both along their second axis. So the result is the four-product arrangement of the
  stacked complex product.
-/
import proofs.«164507_j33792802685864_2_alg».proof.Proof.Gen.ReferenceIdeal.Read
import proofs.«164507_j33792802685864_2_alg».proof.Proof.LibComplexProduct

noncomputable section

open scoped BigOperators

namespace Cert.ComplexLinear.Reference

open Idealize.ShloMosaic Idealize.ShloMosaic.ValueIdx Cert.ComplexLinear
open Cert.ReferenceIdeal Cert.ReferenceIdeal.Gen Cert.ReferenceIdeal.Read

variable (xr xi : (⟨S8192x2048, .f32⟩ : BufTy).Contents (Elt Ideal)) (wr wi : (⟨S2048x2048, .f32⟩ : BufTy).Contents (Elt Ideal))

/-- Two rank-2 indices with the same two coordinates are equal. -/
local macro "same_coords" : term => `(funext fun a => Fin.ext (by match a with | ⟨0, _⟩ => rfl | ⟨1, _⟩ => rfl))

/-- Plane 0: the real part. Entry (b, o) reads each contraction's left operand at row b and its right operand at row o. -/
theorem value_re (b : Fin 8192) (o : Fin 2048) :
    val_main_v8 (F := Ideal) xr xi wr wi (ix3 (0 : Fin 2) b o) = rePart (row xr b) (row xi b) (row wr o) (row wi o) := by
  unfold val_main_v8
  refine (concatenate_pair_apply_left (t := S2x8192x2048) (s₁ := S1x8192x2048) (s₂ := S1x8192x2048) (0 : Fin 3)
    (val_main_v6 (F := Ideal) xr xi wr wi) (val_main_v7 (F := Ideal) xr xi wr wi) _ (ix3 (0 : Fin 2) b o) rfl
    (ix3 (0 : Fin 1) b o) (fun a => by
      match a with | ⟨0, _⟩ => rfl | ⟨1, _⟩ => rfl | ⟨2, _⟩ => rfl)).trans ?_
  rw [val_main_v6_apply, val_main_v2_apply, val_main_v0_apply, val_main_v1_apply]
  have l0 : ∀ k, lidx_main_v0 (idx_main_v6 (ix3 (0 : Fin 1) b o)) k = ix2 b k := fun k => same_coords
  have r0 : ∀ k, ridx_main_v0 (idx_main_v6 (ix3 (0 : Fin 1) b o)) k = ix2 o k := fun k => same_coords
  have l1 : ∀ k, lidx_main_v1 (idx_main_v6 (ix3 (0 : Fin 1) b o)) k = ix2 b k := fun k => same_coords
  have r1 : ∀ k, ridx_main_v1 (idx_main_v6 (ix3 (0 : Fin 1) b o)) k = ix2 o k := fun k => same_coords
  simp only [l0, r0, l1, r1]
  rfl

/-- Plane 1: the imaginary part, as the sum of two contractions. -/
theorem value_im (b : Fin 8192) (o : Fin 2048) :
    val_main_v8 (F := Ideal) xr xi wr wi (ix3 (1 : Fin 2) b o) = imFour (row xr b) (row xi b) (row wr o) (row wi o) := by
  unfold val_main_v8
  refine (concatenate_pair_apply_right (t := S2x8192x2048) (s₁ := S1x8192x2048) (s₂ := S1x8192x2048) (0 : Fin 3)
    (val_main_v6 (F := Ideal) xr xi wr wi) (val_main_v7 (F := Ideal) xr xi wr wi) _ (ix3 (1 : Fin 2) b o) rfl rfl
    (ix3 (0 : Fin 1) b o) (fun a hne => by
      match a with | ⟨0, _⟩ => exact absurd rfl hne | ⟨1, _⟩ => rfl | ⟨2, _⟩ => rfl) rfl).trans ?_
  rw [val_main_v7_apply, val_main_v5_apply, val_main_v3_apply, val_main_v4_apply]
  have l3 : ∀ k, lidx_main_v3 (idx_main_v7 (ix3 (0 : Fin 1) b o)) k = ix2 b k := fun k => same_coords
  have r3 : ∀ k, ridx_main_v3 (idx_main_v7 (ix3 (0 : Fin 1) b o)) k = ix2 o k := fun k => same_coords
  have l4 : ∀ k, lidx_main_v4 (idx_main_v7 (ix3 (0 : Fin 1) b o)) k = ix2 b k := fun k => same_coords
  have r4 : ∀ k, ridx_main_v4 (idx_main_v7 (ix3 (0 : Fin 1) b o)) k = ix2 o k := fun k => same_coords
  simp only [l3, r3, l4, r4]
  rfl

/-- The reference's result is the four-product arrangement of the stacked complex product. -/
theorem value_eq : val_main_v8 (F := Ideal) xr xi wr wi = fourProducts (M := 8192) (N := 2048) (K := 2048) xr xi wr wi := by
  funext i
  obtain ⟨p, b, o, rfl⟩ : ∃ (p : Fin 2) (b : Fin 8192) (o : Fin 2048), i = ix3 p b o := ⟨i 0, i 1, i 2, eq_ix3 i⟩
  match p with
  | ⟨0, _⟩ => exact (value_re xr xi wr wi b o).trans (fourProducts_re xr xi wr wi b o).symm
  | ⟨1, _⟩ => exact (value_im xr xi wr wi b o).trans (fourProducts_im xr xi wr wi b o).symm

end Cert.ComplexLinear.Reference

end
-- ==== Proof.BlockValue.lean ====
/-
  One grid point of the kernel. The body loads a [512, 2048] block of xr and of xi and a [256, 2048] block of wr and
  of wi, forms three products against zero accumulators —
      t1 = xr·wrᵀ,   t2 = xi·wiᵀ,   t3 = (xr + xi)·(wr + wi)ᵀ,
  each entry (r, c) the contraction ∑ₖ lhs(r,k)·rhs(c,k) of a row with a row — and stores t1 − t2 into plane 0 and
  (t3 − t1) − t2 into plane 1 of its [2, 512, 256] output block. Read on the extended reals (a change of float format
  is the identity there, and so is a cast to the same shape), the block the two stores leave is the three-product
  arrangement of the stacked complex product of the four input blocks. No finiteness is used here: this is what the
  body computes, whatever the entries.
-/
import proofs.«164507_j33792802685864_2_alg».proof.Proof.Gen.KernelIdeal.Frame
import proofs.«164507_j33792802685864_2_alg».proof.Proof.LibComplexProduct
import Idealize.ShloMosaic.Lib.Pipeline.Value
import Idealize.ShloMosaic.Lib.ValueIdx
import Idealize.ShloMosaic.PureOps.Ideal.Laws

noncomputable section

open scoped BigOperators

namespace Cert.ComplexLinear.Block

open Idealize.ShloMosaic Idealize.ShloMosaic.ValueIdx Cert.ComplexLinear
open Cert.KernelIdeal Cert.KernelIdeal.Gen

/-- The three products' dimension numbers: contract axis 1 of the left [512, 2048] operand with axis 1 of the right
    [256, 2048] operand, into [512, 256]. -/
abbrev dims : DotDims S512x2048 S256x2048 S512x256 := dot_S512x2048_S256x2048_S512x256_1_1_0_0_n_n

/-! ## A product into a zero accumulator, at an entry -/

/-- The left operand is read at the entry's row … -/
theorem lhs_row (i : S512x256.Idx) (q : dims.contr.Idx) : (dims.lhsIdx i q 0).val = (i 0).val := by
  unfold DotDims.lhsIdx
  rw [dif_neg (show ¬(0 : Fin S512x2048.rank) ∈ dims.lhsBatch by decide), dif_pos (show (0 : Fin S512x2048.rank) ∈ dims.lhsNonContracting by decide)]
  rfl
/-- … and the right operand at the row the entry's column names. -/
theorem rhs_row (i : S512x256.Idx) (q : dims.contr.Idx) : (dims.rhsIdx i q 0).val = (i 1).val := by
  unfold DotDims.rhsIdx
  rw [dif_neg (show ¬(0 : Fin S256x2048.rank) ∈ dims.rhsBatch by decide), dif_pos (show (0 : Fin S256x2048.rank) ∈ dims.rhsNonContracting by decide)]
  rfl

/-- Entry (r, c) of a product into a zero accumulator is ∑ₖ lhs(r,k)·rhs(c,k). -/
theorem matmul_rows (lhs : FVec Ideal S512x2048 .bf16) (rhs : FVec Ideal S256x2048 .bf16) (r : Fin 512) (c : Fin 256) :
    matmul dims none lhs rhs (constant (F := Ideal) S512x256 .f32 0x00000000#32) (ix2 r c)
      = ∑ k : Fin 2048, lhs (ix2 r k) * rhs (ix2 c k) := by
  simp only [matmul]
  rw [Ideal.matmul_constant_zero_apply, ← Equiv.sum_comp (contrEquiv1 dims 2048 rfl rfl).symm]
  refine Finset.sum_congr rfl fun k _ => ?_
  have hk := contrEquiv1_symm_val dims 2048 rfl rfl k
  have el : dims.lhsIdx (ix2 r c) ((contrEquiv1 dims 2048 rfl rfl).symm k) = ix2 r k := funext fun a => Fin.ext (by
    match a with
    | ⟨0, _⟩ => exact lhs_row _ _
    | ⟨1, _⟩ => exact (dims.lhsIdx_val_of_single rfl _ _).trans hk)
  have er : dims.rhsIdx (ix2 r c) ((contrEquiv1 dims 2048 rfl rfl).symm k) = ix2 c k := funext fun a => Fin.ext (by
    match a with
    | ⟨0, _⟩ => exact rhs_row _ _
    | ⟨1, _⟩ => exact (dims.rhsIdx_val_of_single rfl _ _).trans hk)
  rw [el, er]

/-! ## The body's values, at an entry -/

variable (v0 v2 : Vec Ideal S512x2048 .f32) (v4 v6 : Vec Ideal S256x2048 .bf16)

/-- A weight block cast to its own shape is itself. -/
theorem pay3_eq : k0_pay3 v4 = v4 := shapeCast_self v4 _
theorem pay4_eq : k0_pay4 v6 = v6 := shapeCast_self v6 _

/-- t1 = xr·wrᵀ at (r, c). (The narrowing of the left block to bf16 is the identity on the extended reals.) -/
theorem pay5_apply (r : Fin 512) (c : Fin 256) :
    k0_pay5 v0 v4 (ix2 r c) = ∑ k : Fin 2048, v0 (ix2 r k) * v4 (ix2 c k) := by
  refine (matmul_rows (k0_pay1 v0) (k0_pay3 v4) r c).trans ?_
  rw [pay3_eq]
  rfl

/-- t2 = xi·wiᵀ at (r, c). -/
theorem pay6_apply (r : Fin 512) (c : Fin 256) :
    k0_pay6 v2 v6 (ix2 r c) = ∑ k : Fin 2048, v2 (ix2 r k) * v6 (ix2 c k) := by
  refine (matmul_rows (k0_pay2 v2) (k0_pay4 v6) r c).trans ?_
  rw [pay4_eq]
  rfl

/-- t3 = (xr + xi)·(wr + wi)ᵀ at (r, c). -/
theorem sum_product_apply (r : Fin 512) (c : Fin 256) :
    matmul dims none (addf (k0_pay1 v0) (k0_pay2 v2)) (addf (k0_pay3 v4) (k0_pay4 v6))
        (constant (F := Ideal) S512x256 .f32 0x00000000#32) (ix2 r c)
      = ∑ k : Fin 2048, (v0 (ix2 r k) + v2 (ix2 r k)) * (v4 (ix2 c k) + v6 (ix2 c k)) := by
  refine (matmul_rows _ _ r c).trans ?_
  rw [pay3_eq, pay4_eq]
  rfl

/-- A [512, 256] value given a leading unit axis reads, at (0, r, c), the value at (r, c). -/
theorem addUnit_read (v : FVec Ideal S512x256 .f32) (r : Fin 512) (c : Fin 256) :
    shapeCast S1x512x256 v shapeCasts_S512x256_S1x512x256 (ix3 (0 : Fin 1) r c) = v (ix2 r c) :=
  (shapeCast_addUnit_apply ![512, 256] v _ (ix3 (0 : Fin 1) r c)).trans
    (congrArg v (funext fun a => by match a with | ⟨0, _⟩ => rfl | ⟨1, _⟩ => rfl))

/-- What is stored into plane 0: t1 − t2, the real part. -/
theorem pay7_apply (r : Fin 512) (c : Fin 256) :
    k0_pay7 v0 v2 v4 v6 (ix3 (0 : Fin 1) r c)
      = rePart (row (M := 512) (K := 2048) v0 r) (row (M := 512) (K := 2048) v2 r)
          (row (M := 256) (K := 2048) v4 c) (row (M := 256) (K := 2048) v6 c) := by
  refine (addUnit_read (subf (k0_pay5 v0 v4) (k0_pay6 v2 v6)) r c).trans ?_
  show k0_pay5 v0 v4 (ix2 r c) - k0_pay6 v2 v6 (ix2 r c) = _
  rw [pay5_apply, pay6_apply]
  rfl

/-- What is stored into plane 1: (t3 − t1) − t2, the imaginary part from three products. -/
theorem pay8_apply (r : Fin 512) (c : Fin 256) :
    k0_pay8 v0 v2 v4 v6 (ix3 (0 : Fin 1) r c)
      = imThree (row (M := 512) (K := 2048) v0 r) (row (M := 512) (K := 2048) v2 r)
          (row (M := 256) (K := 2048) v4 c) (row (M := 256) (K := 2048) v6 c) := by
  refine (addUnit_read (subf (subf (matmul dims none (addf (k0_pay1 v0) (k0_pay2 v2)) (addf (k0_pay3 v4) (k0_pay4 v6))
    (constant (F := Ideal) S512x256 .f32 0x00000000#32)) (k0_pay5 v0 v4)) (k0_pay6 v2 v6)) r c).trans ?_
  show (matmul dims none (addf (k0_pay1 v0) (k0_pay2 v2)) (addf (k0_pay3 v4) (k0_pay4 v6))
    (constant (F := Ideal) S512x256 .f32 0x00000000#32) (ix2 r c) - k0_pay5 v0 v4 (ix2 r c)) - k0_pay6 v2 v6 (ix2 r c) = _
  rw [sum_product_apply, pay5_apply, pay6_apply]
  rfl

/-! ## The two stores, placed in the block -/

theorem zeros2 : (![0, 0] : Fin 2 → Nat) = fun _ => 0 := funext fun a => by fin_cases a <;> rfl

/-- The first store's rectangle is plane 0 of the block: its entry (z, r, c) is the block's (0, r, c). -/
theorem plane0_at (z : Fin 1) (r : Fin 512) (c : Fin 256) : r0_2.emb (ix3 z r c) = ix3 (0 : Fin 2) r c := by
  have hz := z.isLt
  funext a; apply Fin.ext
  match a with
  | ⟨0, _⟩ => show 0 + 1 * z.val = 0; omega
  | ⟨1, _⟩ => show 0 + 1 * r.val = r.val; omega
  | ⟨2, _⟩ => show 0 + 1 * c.val = c.val; omega

/-- The second store's rectangle is plane 1 of the block. -/
theorem plane1_at (z : Fin 1) (r : Fin 512) (c : Fin 256) : r0_3.emb (ix3 z r c) = ix3 (1 : Fin 2) r c := by
  have hz := z.isLt
  funext a; apply Fin.ext
  match a with
  | ⟨0, _⟩ => show 1 + 1 * z.val = 1; omega
  | ⟨1, _⟩ => show 0 + 1 * r.val = r.val; omega
  | ⟨2, _⟩ => show 0 + 1 * c.val = c.val; omega

variable (x0 x1 : Vec Ideal S512x2048 .f32) (x2 x3 : Vec Ideal S256x2048 .bf16)

/-- THE BLOCK a grid point leaves: the three-product arrangement of the stacked complex product of its four input
    blocks. Each of the two stores is a plane of that one function, and together they cover the block. -/
theorem block_eq : out0_4 (F := Ideal) x0 x1 x2 x3 = threeProducts (M := 512) (N := 256) (K := 2048) x0 x1 x2 x3 := by
  funext y
  unfold out0_4
  rw [View.ld_unit_zero (S := S512x2048) zeros2, View.ld_unit_zero (S := S512x2048) zeros2,
    View.ld_unit_zero (S := S256x2048) zeros2, View.ld_unit_zero (S := S256x2048) zeros2]
  refine View.canon_apply_of_pieces (Val := Elt Ideal) (S := S2x512x256) (e := .f32)
    (threeProducts (M := 512) (N := 256) (K := 2048) x0 x1 x2 x3) _ ?_ y (cover0_4 _ _ y)
  intro p hp x
  simp only [List.mem_cons, List.not_mem_nil, or_false] at hp
  rcases hp with rfl | rfl
  · obtain ⟨z, r, c, rfl⟩ : ∃ (z : Fin 1) (r : Fin 512) (c : Fin 256), x = ix3 z r c := ⟨x 0, x 1, x 2, eq_ix3 x⟩
    obtain rfl : z = 0 := Fin.ext (by have := z.isLt; omega)
    show k0_pay8 x0 x1 x2 x3 (ix3 (0 : Fin 1) r c) = _
    rw [plane1_at, threeProducts_im]
    exact pay8_apply x0 x1 x2 x3 r c
  · obtain ⟨z, r, c, rfl⟩ : ∃ (z : Fin 1) (r : Fin 512) (c : Fin 256), x = ix3 z r c := ⟨x 0, x 1, x 2, eq_ix3 x⟩
    obtain rfl : z = 0 := Fin.ext (by have := z.isLt; omega)
    show k0_pay7 x0 x1 x2 x3 (ix3 (0 : Fin 1) r c) = _
    rw [plane0_at, threeProducts_re]
    exact pay7_apply x0 x1 x2 x3 r c

end Cert.ComplexLinear.Block

end
-- ==== Proof.ArrayValue.lean ====
/-
  From blocks to the whole array. The grid has 16 × 8 points; point (i, j) reads rows 512·i … 512·i+511 of xr and of
  xi (all 2048 columns), rows 256·j … 256·j+255 of wr and of wi, and writes the [2, 512, 256] block of the result
  whose corner is (0, 512·i, 256·j). An entry (p, r, q) of that block is the stacked complex product's entry
  (p, 512·i + r, 256·j + q): the same plane, row 512·i + r of x against row 256·j + q of w — and those rows, reached
  through the blocks, are rows r and q of the blocks. So each point writes its block of ONE whole-array function, the
  three-product arrangement of the arrays the region finds; the 128 blocks tile the result array (entry (p, b, o)
  lies in the block of point (b / 512, o / 256)); hence the array ends holding that function. The weights reach the
  region narrowed to bf16 by the host, which on the extended reals changes nothing: the function is the
  three-product arrangement of the four arguments.
-/
import proofs.«164507_j33792802685864_2_alg».proof.Proof.Gen.KernelIdeal.Value
import proofs.«164507_j33792802685864_2_alg».proof.Proof.BlockValue
import Idealize.ShloMosaic.Lib.StableHlo.Run

noncomputable section

namespace Cert.ComplexLinear.Array

open Idealize.ShloMosaic Idealize.ShloMosaic.ValueIdx Idealize.ShloMosaic.TcCoe Idealize.SL.Sem Cert.ComplexLinear
open Cert.KernelIdeal Cert.KernelIdeal.Gen
open Idealize.ShloMosaic.Pipeline (Dat)

variable (m : (ℓ : Loc nD τ sig) → Buf (Elt Ideal) ℓ) (ρ : Dev nD → PrngReg)

/-! ## The weights as the region finds them -/

/-- The real weights after the host's narrowing: on the extended reals, the argument itself. -/
theorem V_wr (c : Dev nD) : (V m c main_v0 : S2048x2048.Idx → EReal) = m ((c : Thread nD τ).loc main_arg2) := by
  dsimp only [V, hostOps0]; after_results; rfl

/-- The imaginary weights likewise. -/
theorem V_wi (c : Dev nD) : (V m c main_v1 : S2048x2048.Idx → EReal) = m ((c : Thread nD τ).loc main_arg3) := by
  dsimp only [V, hostOps0]; after_results; rfl

/-! ## The index maps over the grid -/

/-- At every point the x windows sit at the output block's row index and the w windows at its column index, each over
    all of the contracted axis; the output block is in plane-pair 0, row index ≤ 15, column index ≤ 7. -/
theorem idx_facts : ∀ t : Fin cfg0.N,
    win0_0.index t (0 : Fin 2) = win0_4.index t (1 : Fin 3) ∧ win0_0.index t (1 : Fin 2) = 0
    ∧ win0_1.index t (0 : Fin 2) = win0_4.index t (1 : Fin 3) ∧ win0_1.index t (1 : Fin 2) = 0
    ∧ win0_2.index t (0 : Fin 2) = win0_4.index t (2 : Fin 3) ∧ win0_2.index t (1 : Fin 2) = 0
    ∧ win0_3.index t (0 : Fin 2) = win0_4.index t (2 : Fin 3) ∧ win0_3.index t (1 : Fin 2) = 0
    ∧ win0_4.index t (0 : Fin 3) = 0 ∧ win0_4.index t (1 : Fin 3) ≤ 15 ∧ win0_4.index t (2 : Fin 3) ≤ 7 :=
  (by decide +kernel : ∀ t : Fin grid0.N, _)

/-- Every block position of the result is some point's. -/
theorem idx_onto : ∀ (q1 : Fin 16) (q2 : Fin 8), ∃ t : Fin cfg0.N, win0_4.index t = ![0, q1.val, q2.val] :=
  (by decide +kernel : ∀ (q1 : Fin 16) (q2 : Fin 8), ∃ t : Fin grid0.N, win0_4.index t = ![0, q1.val, q2.val])

/-! ## What a point writes -/

/-- The whole-array function: the three-product arrangement of the arrays as the region finds them. -/
abbrev regionValue (c : Dev nD) : S2x8192x2048.Idx → EReal :=
  threeProducts (M := 8192) (N := 2048) (K := 2048) (V m c main_arg0) (V m c main_arg1) (V m c main_v0) (V m c main_v1)

/-- WHAT POINT `t` WRITES BACK is block `t` of that function. -/
theorem flushed_eq (c : Dev nD) (t : Fin cfg0.N) :
    (dats m 0 c).flushed 4 t = ((cfg0.win 4).blk t).view.read (Elt Ideal) (regionValue m c) := by
  rw [Value.flushed4, Block.block_eq (iblk m c 0 t) (iblk m c 1 t) (iblk m c 2 t) (iblk m c 3 t)]
  obtain ⟨e00, e01, e10, e11, e20, e21, e30, e31, e40, e41, e42⟩ := idx_facts t
  funext y
  obtain ⟨p, r, q, rfl⟩ : ∃ (p : Fin 2) (r : Fin 512) (q : Fin 256), y = ix3 p r q := ⟨y 0, y 1, y 2, eq_ix3 y⟩
  have hp := p.isLt
  have hr' := r.isLt
  have hq' := q.isLt
  -- where the block's entry (p, r, q) sits in the array
  have hr : win0_4.index t (1 : Fin 3) * 512 + r.val < 8192 := by omega
  have hq : win0_4.index t (2 : Fin 3) * 256 + q.val < 2048 := by omega
  have hemb : ((cfg0.win 4).blk t).view.emb (ix3 p r q)
      = ix3 p (⟨win0_4.index t (1 : Fin 3) * 512 + r.val, hr⟩ : Fin 8192) (⟨win0_4.index t (2 : Fin 3) * 256 + q.val, hq⟩ : Fin 2048) := by
    funext a; apply Fin.ext
    match a with
    | ⟨0, _⟩ => show win0_4.index t (0 : Fin 3) * 2 + 1 * p.val = p.val; omega
    | ⟨1, _⟩ => show win0_4.index t (1 : Fin 3) * 512 + 1 * r.val = win0_4.index t (1 : Fin 3) * 512 + r.val; omega
    | ⟨2, _⟩ => show win0_4.index t (2 : Fin 3) * 256 + 1 * q.val = win0_4.index t (2 : Fin 3) * 256 + q.val; omega
  show threeProducts (M := 512) (N := 256) (K := 2048) (iblk m c 0 t) (iblk m c 1 t) (iblk m c 2 t) (iblk m c 3 t) (ix3 p r q)
    = regionValue m c (((cfg0.win 4).blk t).view.emb (ix3 p r q))
  rw [hemb]
  refine threeProducts_congr (M := 512) (N := 256) (K := 2048) (M' := 8192) (N' := 2048) _ _ _ _ _ _ _ _ p r q _ _
    (fun k => ?_) (fun k => ?_) (fun k => ?_) (fun k => ?_)
  · -- row r of the xr block is row 512·i + r of xr
    have hk := k.isLt
    show V m c main_arg0 (((cfg0.win 0).blk t).view.emb (ix2 r k)) = V m c main_arg0 (ix2 (⟨_, hr⟩ : Fin 8192) k)
    have h : ((cfg0.win 0).blk t).view.emb (ix2 r k) = ix2 (⟨_, hr⟩ : Fin 8192) k := by
      funext a; apply Fin.ext
      match a with
      | ⟨0, _⟩ => show win0_0.index t (0 : Fin 2) * 512 + 1 * r.val = win0_4.index t (1 : Fin 3) * 512 + r.val; omega
      | ⟨1, _⟩ => show win0_0.index t (1 : Fin 2) * 2048 + 1 * k.val = k.val; omega
    rw [h]
  · have hk := k.isLt
    show V m c main_arg1 (((cfg0.win 1).blk t).view.emb (ix2 r k)) = V m c main_arg1 (ix2 (⟨_, hr⟩ : Fin 8192) k)
    have h : ((cfg0.win 1).blk t).view.emb (ix2 r k) = ix2 (⟨_, hr⟩ : Fin 8192) k := by
      funext a; apply Fin.ext
      match a with
      | ⟨0, _⟩ => show win0_1.index t (0 : Fin 2) * 512 + 1 * r.val = win0_4.index t (1 : Fin 3) * 512 + r.val; omega
      | ⟨1, _⟩ => show win0_1.index t (1 : Fin 2) * 2048 + 1 * k.val = k.val; omega
    rw [h]
  · -- row q of the wr block is row 256·j + q of wr
    have hk := k.isLt
    show V m c main_v0 (((cfg0.win 2).blk t).view.emb (ix2 q k)) = V m c main_v0 (ix2 (⟨_, hq⟩ : Fin 2048) k)
    have h : ((cfg0.win 2).blk t).view.emb (ix2 q k) = ix2 (⟨_, hq⟩ : Fin 2048) k := by
      funext a; apply Fin.ext
      match a with
      | ⟨0, _⟩ => show win0_2.index t (0 : Fin 2) * 256 + 1 * q.val = win0_4.index t (2 : Fin 3) * 256 + q.val; omega
      | ⟨1, _⟩ => show win0_2.index t (1 : Fin 2) * 2048 + 1 * k.val = k.val; omega
    rw [h]
  · have hk := k.isLt
    show V m c main_v1 (((cfg0.win 3).blk t).view.emb (ix2 q k)) = V m c main_v1 (ix2 (⟨_, hq⟩ : Fin 2048) k)
    have h : ((cfg0.win 3).blk t).view.emb (ix2 q k) = ix2 (⟨_, hq⟩ : Fin 2048) k := by
      funext a; apply Fin.ext
      match a with
      | ⟨0, _⟩ => show win0_3.index t (0 : Fin 2) * 256 + 1 * q.val = win0_4.index t (2 : Fin 3) * 256 + q.val; omega
      | ⟨1, _⟩ => show win0_3.index t (1 : Fin 2) * 2048 + 1 * k.val = k.val; omega
    rw [h]

/-! ## The blocks tile the array -/

/-- An index of the array is in point `t`'s block iff each coordinate is in the block's range on its axis. -/
theorem mem_blk (t : Fin cfg0.N) (i : S2x8192x2048.Idx) :
    i ∈ ((cfg0.win 4).blk t).view.set ↔ ∀ a : Fin 3, win0_4.index t a * S2x512x256.size a ≤ (i a).val
      ∧ (i a).val < win0_4.index t a * S2x512x256.size a + S2x512x256.size a := by
  show i ∈ ((View.whole main_v2).slice (win0_4.rect t)).set ↔ _
  rw [View.set_slice_whole, Rect.mem_set_unit]
  exact Iff.rfl

/-- Entry (p, b, o) lies in the block of the point whose output block sits at (0, b / 512, o / 256). -/
theorem covered (i : S2x8192x2048.Idx) :
    ∃ t : Fin cfg0.N, (cfg0.win 4).flush t = true ∧ i ∈ ((cfg0.win 4).blk t).view.set := by
  have hi0 : (i 0).val < 2 := (i 0).isLt
  have hi1 : (i 1).val < 8192 := (i 1).isLt
  have hi2 : (i 2).val < 2048 := (i 2).isLt
  obtain ⟨t, ht⟩ := idx_onto ⟨(i 1).val / 512, by omega⟩ ⟨(i 2).val / 256, by omega⟩
  have q0 : win0_4.index t (0 : Fin 3) = 0 := congrFun ht 0
  have q1 : win0_4.index t (1 : Fin 3) = (i 1).val / 512 := congrFun ht 1
  have q2 : win0_4.index t (2 : Fin 3) = (i 2).val / 256 := congrFun ht 2
  refine ⟨t, flush0_4 t, ?_⟩
  rw [mem_blk]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 512 ≤ (i 1).val ∧ (i 1).val < win0_4.index t (1 : Fin 3) * 512 + 512; omega
  | ⟨2, _⟩ => show win0_4.index t (2 : Fin 3) * 256 ≤ (i 2).val ∧ (i 2).val < win0_4.index t (2 : Fin 3) * 256 + 256; omega

/-! ## The array after the run -/

/-- THE RESULT ARRAY after the run is the whole-array function. -/
theorem final (c : Dev nD) : (dats m 0 c).arrAt 4 cfg0.N = regionValue m c :=
  (dats m 0 c).arrAt_eq_of_cover 4 (regionValue m c) (fun t _ => flushed_eq m c t) covered

/-- In terms of the arguments: the x arrays reach the region as launched, the weights narrowed, which is the identity. -/
theorem regionValue_eq (c : Dev nD) :
    regionValue m c = threeProducts (M := 8192) (N := 2048) (K := 2048) (m ((c : Thread nD τ).loc main_arg0))
      (m ((c : Thread nD τ).loc main_arg1)) (m ((c : Thread nD τ).loc main_arg2)) (m ((c : Thread nD τ).loc main_arg3)) := by
  show threeProducts (M := 8192) (N := 2048) (K := 2048) (V m c main_arg0) (V m c main_arg1) (V m c main_v0) (V m c main_v1) = _
  rw [V_main_arg0, V_main_arg1, V_wr, V_wi]

/-- The kernel's run: every weakly fair execution terminates with the result array at the three-product arrangement
    of the stacked complex product of the arguments, the arguments unchanged. -/
theorem run : θ_run defs (onTc (τ := τ) (main (F := Ideal))) ⟨m, fun _ => 0, ρ⟩ fun r => ∀ c : Dev nD,
      r.2.mem ((c : Thread nD τ).loc main_v2) = threeProducts (M := 8192) (N := 2048) (K := 2048)
        (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (regionValue_eq m c)), (h c).2⟩)
    (Value.run_blocks m ρ)

end Cert.ComplexLinear.Array

end
-- ==== Proof.lean ====
/-
  A complex linear layer y = x · wᵀ, with x = xr + i·xi of shape [8192, 2048] and w = wr + i·wi of shape [2048, 2048],
  returned as the real and imaginary planes stacked into [2, 8192, 2048].

  The reference forms four real products and returns (xr·wrᵀ − xi·wiᵀ, xr·wiᵀ + xi·wrᵀ). The kernel, tiled 16 × 8 over
  the result, forms three per tile — t1 = xr·wrᵀ, t2 = xi·wiᵀ, t3 = (xr + xi)·(wr + wi)ᵀ — and stores (t1 − t2,
  (t3 − t1) − t2). On the extended reals every entry of both results is a finite sum of products of entries of one row
  of x with one row of w, so:
    · the kernel's result array is the three-product arrangement of the arguments (Proof/BlockValue.lean: one tile;
      Proof/ArrayValue.lean: the tiles cover the array), with no hypothesis on the entries;
    · the reference's is the four-product arrangement (Proof/ReferenceValue.lean);
    · the two arrangements are equal when every entry is a real number (Proof/LibComplexProduct.lean: the identity
      (a+b)(c+d) − ac − bd = ad + bc needs distributivity and cancellation, which fail at ±∞), and the precondition
      says exactly that (Proof/FiniteEntries.lean).
  The two changes of float format on the kernel's side (the weights narrowed by the host, the x tiles narrowed in the
  body) are the identity on the extended reals, and no operation of the kernel was rewritten when it was idealized, so
  there is nothing to preserve.
-/
import proofs.«164507_j33792802685864_2_alg».proof.Defs
import proofs.«164507_j33792802685864_2_alg».proof.Proof.Gen.Kernel
import proofs.«164507_j33792802685864_2_alg».proof.Proof.Gen.Kernel.Frame
import proofs.«164507_j33792802685864_2_alg».proof.Proof.Gen.KernelIdeal
import proofs.«164507_j33792802685864_2_alg».proof.Proof.Gen.KernelIdeal.Frame
import proofs.«164507_j33792802685864_2_alg».proof.Proof.Gen.KernelIdeal.Value
import proofs.«164507_j33792802685864_2_alg».proof.Proof.Gen.ReferenceIdeal
import proofs.«164507_j33792802685864_2_alg».proof.Proof.Gen.ReferenceIdeal.Run
import proofs.«164507_j33792802685864_2_alg».proof.Proof.Gen.ReferenceIdeal.Read
import proofs.«164507_j33792802685864_2_alg».proof.Proof.Gen.Pre_finite_inputs
import proofs.«164507_j33792802685864_2_alg».proof.Proof.LibComplexProduct
import proofs.«164507_j33792802685864_2_alg».proof.Proof.FiniteEntries
import proofs.«164507_j33792802685864_2_alg».proof.Proof.ReferenceValue
import proofs.«164507_j33792802685864_2_alg».proof.Proof.ArrayValue
import Idealize.ShloMosaic.Adequacy
import Idealize.ShloMosaic.Init

noncomputable section

namespace Cert.Proof

open Idealize.ShloMosaic Idealize.ShloMosaic.TcCoe Idealize.SL.Sem Cert.ComplexLinear

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the arguments, all finite, both programs end with the same [2, 8192, 2048] array: the
    kernel's run leaves the three-product arrangement of the arguments, the reference's the four-product arrangement
    of the same arguments, and on real entries these are one array. -/
theorem algebraic : Cert.algebraic_KernelIdeal_ReferenceIdeal := by
  intro m ρ m' ρ' hpre hagree
  refine ⟨_, Cert.ComplexLinear.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ComplexLinear.Reference.value_eq,
    (hagree c).1, (hagree c).2.1, (hagree c).2.2.1, (hagree c).2.2.2]
  obtain ⟨h0, h1, h2, h3⟩ := Cert.ComplexLinear.Finite.entries_real _ _ _ _ (hpre c)
  exact (threeProducts_eq_fourProducts _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
